-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8x257x600 : Shape := ⟨4, ![8, 8, 257, 600]⟩
abbrev S_ : Shape := ⟨0, ![]⟩

class Facts : Prop where
  bcast_S_S8x8x257x600 : S_.BroadcastsInDim S8x8x257x600 (![] : Fin 0 → Fin S8x8x257x600.rank)
  reducesTo_S8x8x257x600_S_d0_1_2_3 : S8x8x257x600.ReducesTo [0, 1, 2, 3] S_
  h_S_ : 0 < S_.numel

variable [Facts]

def fn {F : FTy → Type} [FloatOps F] (main_arg0 : FVec F S8x8x257x600 .f32) : IVec S_ 1 :=
  let main_v0 : FVec F S8x8x257x600 .f32 := Host.absf main_arg0
  let main_cst : FVec F S_ .f32 := constant S_ .f32 0x7F800000#32
  let main_v1 : FVec F S8x8x257x600 .f32 := broadcastInDim S8x8x257x600 ![] bcast_S_S8x8x257x600 main_cst
  let main_v2 : IVec S8x8x257x600 1 := cmpf .olt main_v0 main_v1
  let main_c : IVec S_ 1 := constantI S_ 1 1#1
  let main_v3 : IVec S_ 1 := (fun x v => Host.reduce IntOp.andi x v reducesTo_S8x8x257x600_S_d0_1_2_3 h_S_) main_v2 main_c
  main_v3
-- ==== Kernel.lean ====
abbrev S8x8x257x600 : Shape := ⟨4, ![8, 8, 257, 600]⟩
abbrev S28 : Shape := ⟨1, ![28]⟩
abbrev S224x2x257x600 : Shape := ⟨4, ![224, 2, 257, 600]⟩
abbrev S1x8x257x600 : Shape := ⟨4, ![1, 8, 257, 600]⟩
abbrev S7x2x257x600 : Shape := ⟨4, ![7, 2, 257, 600]⟩
abbrev S1 : Shape := ⟨1, ![1]⟩
abbrev S1x1x257x600 : Shape := ⟨4, ![1, 1, 257, 600]⟩
abbrev S257x600 : Shape := ⟨2, ![257, 600]⟩

abbrev nBuf : Space → Nat
  | .hbm => 2
  | .vmem => 4
  | .smem => 2
  | _ => 0

abbrev bufTy : (tb : Table) → Fin (tcTables nBuf tb) → BufTy
  | .hbm, ⟨0, _⟩ => ⟨S8x8x257x600, .f32⟩
  | .hbm, ⟨1, _⟩ => ⟨S224x2x257x600, .f32⟩
  | .local _ .vmem, ⟨0, _⟩ => ⟨S1x8x257x600, .f32⟩
  | .local _ .vmem, ⟨1, _⟩ => ⟨S1x8x257x600, .f32⟩
  | .local _ .vmem, ⟨2, _⟩ => ⟨S7x2x257x600, .f32⟩
  | .local _ .vmem, ⟨3, _⟩ => ⟨S7x2x257x600, .f32⟩
  | .local _ .smem, ⟨0, _⟩ => ⟨S28, .i32⟩
  | .local _ .smem, ⟨1, _⟩ => ⟨S28, .i32⟩
  | _, _ => ⟨S8x8x257x600, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 4], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let c7_i32 : BitVec 32 := 7#32
  let v0 : BitVec 32 := Scalar.muli arg1 c7_i32
  let c0_i32 : BitVec 32 := 0#32
  let v1 : BitVec 32 := Scalar.addi v0 c0_i32
  let v2 : Index := Scalar.indexCast v1
  ![v2.toNat]
def k0_off2 (v3 : BitVec 32) : Fin 4 → Nat :=
  let c0 : Index := 0#32
  let v6 : Index := Scalar.indexCast v3
  let c0_0 : Index := 0#32
  let c0_1 : Index := 0#32
  ![0, v6.toNat, 0, 0]

def k0_chk1 (v3 : BitVec 32) : Prop :=
  (∀ a, (k0_off2 v3) a + S1x1x257x600.size a ≤ S1x8x257x600.size a)
instance k0_chk1.dec : ∀ (v3 : BitVec 32), Decidable (k0_chk1 v3) := fun v3 => decidable_of_iff' _ (Iff.of_eq (k0_chk1.eq_1 v3))
theorem k0_off2_inb : ∀ (v3 : BitVec 32) (k0_hw1 : k0_chk1 v3), ∀ a, (k0_off2 v3) a + S1x1x257x600.size a ≤ S1x8x257x600.size a := fun v3 k0_hw1 => k0_hw1

def k0_off3 (v5 : BitVec 32) : Fin 4 → Nat :=
  let c0_6 : Index := 0#32
  let v12 : Index := Scalar.indexCast v5
  let c0_7 : Index := 0#32
  let c0_8 : Index := 0#32
  ![0, v12.toNat, 0, 0]

def k0_chk2 (v5 : BitVec 32) : Prop :=
  (∀ a, (k0_off3 v5) a + S1x1x257x600.size a ≤ S1x8x257x600.size a)
instance k0_chk2.dec : ∀ (v5 : BitVec 32), Decidable (k0_chk2 v5) := fun v5 => decidable_of_iff' _ (Iff.of_eq (k0_chk2.eq_1 v5))
theorem k0_off3_inb : ∀ (v5 : BitVec 32) (k0_hw2 : k0_chk2 v5), ∀ a, (k0_off3 v5) a + S1x1x257x600.size a ≤ S1x8x257x600.size a := fun v5 k0_hw2 => k0_hw2

def k0_off4 (i : grid0.Coords) : Fin 1 → Nat :=
  let arg1 : BitVec 32 := BitVec.ofNat 32 (i 1).val
  let c7_i32_12 : BitVec 32 := 7#32
  let v18 : BitVec 32 := Scalar.muli arg1 c7_i32_12
  let c1_i32 : BitVec 32 := 1#32
  let v19 : BitVec 32 := Scalar.addi v18 c1_i32
  let v20 : Index := Scalar.indexCast v19
  ![v20.toNat]
def k0_off5 (v21 : BitVec 32) : Fin 4 → Nat :=
  let c0_13 : Index := 0#32
  let v24 : Index := Scalar.indexCast v21
  let c0_14 : Index := 0#32
  let c0_15 : Index := 0#32
  ![0, v24.toNat, 0, 0]

def k0_chk3 (v21 : BitVec 32) : Prop :=
  (∀ a, (k0_off5 v21) a + S1x1x257x600.size a ≤ S1x8x257x600.size a)
instance k0_chk3.dec : ∀ (v21 : BitVec 32), Decidable (k0_chk3 v21) := fun v21 => decidable_of_iff' _ (Iff.of_eq (k0_chk3.eq_1 v21))
theorem k0_off5_inb : ∀ (v21 : BitVec 32) (k0_hw3 : k0_chk3 v21), ∀ a, (k0_off5 v21) a + S1x1x257x600.size a ≤ S1x8x257x600.size a := fun v21 k0_hw3 => k0_hw3

def k0_off6 (v23 : BitVec 32) : Fin 4 → Nat :=
  let c0_20 : Index := 0#32
  let v30 : Index := Scalar.indexCast v23
  let c0_21 : Index := 0#32
  let c0_22 : Index := 0#32
  ![0, v30.toNat, 0, 0]

def k0_chk4 (v23 : BitVec 32) : Prop :=
  (∀ a, (k0_off6 v23) a + S1x1x257x600.size a ≤ S1x8x257x600.size a)
instance k0_chk4.dec : ∀ (v23 : BitVec 32), Decidable (k0_chk4 v23) := fun v23 => decidable_of_iff' _ (Iff.of_eq (k0_chk4.eq_1 v23))
theorem k0_off6_inb : ∀ (v23 : BitVec 32) (k0_hw4 : k0_chk4 v23), ∀ a, (k0_off6 v23) a + S1x1x257x600.size a ≤ S1x8x257x600.size a := fun v23 k0_hw4 => k0_hw4

def k0_off7 (i : grid0.Coords) : Fin 1 → Nat :=
  let arg1 : BitVec 32 := BitVec.ofNat 32 (i 1).val
  let c7_i32_27 : BitVec 32 := 7#32
  let v36 : BitVec 32 := Scalar.muli arg1 c7_i32_27
  let c2_i32 : BitVec 32 := 2#32
  let v37 : BitVec 32 := Scalar.addi v36 c2_i32
  let v38 : Index := Scalar.indexCast v37
  ![v38.toNat]
def k0_off8 (v39 : BitVec 32) : Fin 4 → Nat :=
  let c0_28 : Index := 0#32
  let v42 : Index := Scalar.indexCast v39
  let c0_29 : Index := 0#32
  let c0_30 : Index := 0#32
  ![0, v42.toNat, 0, 0]

def k0_chk5 (v39 : BitVec 32) : Prop :=
  (∀ a, (k0_off8 v39) a + S1x1x257x600.size a ≤ S1x8x257x600.size a)
instance k0_chk5.dec : ∀ (v39 : BitVec 32), Decidable (k0_chk5 v39) := fun v39 => decidable_of_iff' _ (Iff.of_eq (k0_chk5.eq_1 v39))
theorem k0_off8_inb : ∀ (v39 : BitVec 32) (k0_hw5 : k0_chk5 v39), ∀ a, (k0_off8 v39) a + S1x1x257x600.size a ≤ S1x8x257x600.size a := fun v39 k0_hw5 => k0_hw5

def k0_off9 (v41 : BitVec 32) : Fin 4 → Nat :=
  let c0_34 : Index := 0#32
  let v48 : Index := Scalar.indexCast v41
  let c0_35 : Index := 0#32
  let c0_36 : Index := 0#32
  ![0, v48.toNat, 0, 0]

def k0_chk6 (v41 : BitVec 32) : Prop :=
  (∀ a, (k0_off9 v41) a + S1x1x257x600.size a ≤ S1x8x257x600.size a)
instance k0_chk6.dec : ∀ (v41 : BitVec 32), Decidable (k0_chk6 v41) := fun v41 => decidable_of_iff' _ (Iff.of_eq (k0_chk6.eq_1 v41))
theorem k0_off9_inb : ∀ (v41 : BitVec 32) (k0_hw6 : k0_chk6 v41), ∀ a, (k0_off9 v41) a + S1x1x257x600.size a ≤ S1x8x257x600.size a := fun v41 k0_hw6 => k0_hw6

def k0_off10 (i : grid0.Coords) : Fin 1 → Nat :=
  let arg1 : BitVec 32 := BitVec.ofNat 32 (i 1).val
  let c7_i32_41 : BitVec 32 := 7#32
  let v54 : BitVec 32 := Scalar.muli arg1 c7_i32_41
  let c3_i32 : BitVec 32 := 3#32
  let v55 : BitVec 32 := Scalar.addi v54 c3_i32
  let v56 : Index := Scalar.indexCast v55
  ![v56.toNat]
def k0_off11 (v57 : BitVec 32) : Fin 4 → Nat :=
  let c0_42 : Index := 0#32
  let v60 : Index := Scalar.indexCast v57
  let c0_43 : Index := 0#32
  let c0_44 : Index := 0#32
  ![0, v60.toNat, 0, 0]

def k0_chk7 (v57 : BitVec 32) : Prop :=
  (∀ a, (k0_off11 v57) a + S1x1x257x600.size a ≤ S1x8x257x600.size a)
instance k0_chk7.dec : ∀ (v57 : BitVec 32), Decidable (k0_chk7 v57) := fun v57 => decidable_of_iff' _ (Iff.of_eq (k0_chk7.eq_1 v57))
theorem k0_off11_inb : ∀ (v57 : BitVec 32) (k0_hw7 : k0_chk7 v57), ∀ a, (k0_off11 v57) a + S1x1x257x600.size a ≤ S1x8x257x600.size a := fun v57 k0_hw7 => k0_hw7

def k0_off12 (v59 : BitVec 32) : Fin 4 → Nat :=
  let c0_48 : Index := 0#32
  let v66 : Index := Scalar.indexCast v59
  let c0_49 : Index := 0#32
  let c0_50 : Index := 0#32
  ![0, v66.toNat, 0, 0]

def k0_chk8 (v59 : BitVec 32) : Prop :=
  (∀ a, (k0_off12 v59) a + S1x1x257x600.size a ≤ S1x8x257x600.size a)
instance k0_chk8.dec : ∀ (v59 : BitVec 32), Decidable (k0_chk8 v59) := fun v59 => decidable_of_iff' _ (Iff.of_eq (k0_chk8.eq_1 v59))
theorem k0_off12_inb : ∀ (v59 : BitVec 32) (k0_hw8 : k0_chk8 v59), ∀ a, (k0_off12 v59) a + S1x1x257x600.size a ≤ S1x8x257x600.size a := fun v59 k0_hw8 => k0_hw8

def k0_off13 (i : grid0.Coords) : Fin 1 → Nat :=
  let arg1 : BitVec 32 := BitVec.ofNat 32 (i 1).val
  let c7_i32_55 : BitVec 32 := 7#32
  let v72 : BitVec 32 := Scalar.muli arg1 c7_i32_55
  let c4_i32 : BitVec 32 := 4#32
  let v73 : BitVec 32 := Scalar.addi v72 c4_i32
  let v74 : Index := Scalar.indexCast v73
  ![v74.toNat]
def k0_off14 (v75 : BitVec 32) : Fin 4 → Nat :=
  let c0_56 : Index := 0#32
  let v78 : Index := Scalar.indexCast v75
  let c0_57 : Index := 0#32
  let c0_58 : Index := 0#32
  ![0, v78.toNat, 0, 0]

def k0_chk9 (v75 : BitVec 32) : Prop :=
  (∀ a, (k0_off14 v75) a + S1x1x257x600.size a ≤ S1x8x257x600.size a)
instance k0_chk9.dec : ∀ (v75 : BitVec 32), Decidable (k0_chk9 v75) := fun v75 => decidable_of_iff' _ (Iff.of_eq (k0_chk9.eq_1 v75))
theorem k0_off14_inb : ∀ (v75 : BitVec 32) (k0_hw9 : k0_chk9 v75), ∀ a, (k0_off14 v75) a + S1x1x257x600.size a ≤ S1x8x257x600.size a := fun v75 k0_hw9 => k0_hw9

def k0_off15 (v77 : BitVec 32) : Fin 4 → Nat :=
  let c0_62 : Index := 0#32
  let v84 : Index := Scalar.indexCast v77
  let c0_63 : Index := 0#32
  let c0_64 : Index := 0#32
  ![0, v84.toNat, 0, 0]

def k0_chk10 (v77 : BitVec 32) : Prop :=
  (∀ a, (k0_off15 v77) a + S1x1x257x600.size a ≤ S1x8x257x600.size a)
instance k0_chk10.dec : ∀ (v77 : BitVec 32), Decidable (k0_chk10 v77) := fun v77 => decidable_of_iff' _ (Iff.of_eq (k0_chk10.eq_1 v77))
theorem k0_off15_inb : ∀ (v77 : BitVec 32) (k0_hw10 : k0_chk10 v77), ∀ a, (k0_off15 v77) a + S1x1x257x600.size a ≤ S1x8x257x600.size a := fun v77 k0_hw10 => k0_hw10

def k0_off16 (i : grid0.Coords) : Fin 1 → Nat :=
  let arg1 : BitVec 32 := BitVec.ofNat 32 (i 1).val
  let c7_i32_69 : BitVec 32 := 7#32
  let v90 : BitVec 32 := Scalar.muli arg1 c7_i32_69
  let c5_i32 : BitVec 32 := 5#32
  let v91 : BitVec 32 := Scalar.addi v90 c5_i32
  let v92 : Index := Scalar.indexCast v91
  ![v92.toNat]
def k0_off17 (v93 : BitVec 32) : Fin 4 → Nat :=
  let c0_70 : Index := 0#32
  let v96 : Index := Scalar.indexCast v93
  let c0_71 : Index := 0#32
  let c0_72 : Index := 0#32
  ![0, v96.toNat, 0, 0]

def k0_chk11 (v93 : BitVec 32) : Prop :=
  (∀ a, (k0_off17 v93) a + S1x1x257x600.size a ≤ S1x8x257x600.size a)
instance k0_chk11.dec : ∀ (v93 : BitVec 32), Decidable (k0_chk11 v93) := fun v93 => decidable_of_iff' _ (Iff.of_eq (k0_chk11.eq_1 v93))
theorem k0_off17_inb : ∀ (v93 : BitVec 32) (k0_hw11 : k0_chk11 v93), ∀ a, (k0_off17 v93) a + S1x1x257x600.size a ≤ S1x8x257x600.size a := fun v93 k0_hw11 => k0_hw11

def k0_off18 (v95 : BitVec 32) : Fin 4 → Nat :=
  let c0_76 : Index := 0#32
  let v102 : Index := Scalar.indexCast v95
  let c0_77 : Index := 0#32
  let c0_78 : Index := 0#32
  ![0, v102.toNat, 0, 0]

def k0_chk12 (v95 : BitVec 32) : Prop :=
  (∀ a, (k0_off18 v95) a + S1x1x257x600.size a ≤ S1x8x257x600.size a)
instance k0_chk12.dec : ∀ (v95 : BitVec 32), Decidable (k0_chk12 v95) := fun v95 => decidable_of_iff' _ (Iff.of_eq (k0_chk12.eq_1 v95))
theorem k0_off18_inb : ∀ (v95 : BitVec 32) (k0_hw12 : k0_chk12 v95), ∀ a, (k0_off18 v95) a + S1x1x257x600.size a ≤ S1x8x257x600.size a := fun v95 k0_hw12 => k0_hw12

def k0_off19 (i : grid0.Coords) : Fin 1 → Nat :=
  let arg1 : BitVec 32 := BitVec.ofNat 32 (i 1).val
  let c7_i32_83 : BitVec 32 := 7#32
  let v108 : BitVec 32 := Scalar.muli arg1 c7_i32_83
  let c6_i32 : BitVec 32 := 6#32
  let v109 : BitVec 32 := Scalar.addi v108 c6_i32
  let v110 : Index := Scalar.indexCast v109
  ![v110.toNat]
def k0_off20 (v111 : BitVec 32) : Fin 4 → Nat :=
  let c0_84 : Index := 0#32
  let v114 : Index := Scalar.indexCast v111
  let c0_85 : Index := 0#32
  let c0_86 : Index := 0#32
  ![0, v114.toNat, 0, 0]

def k0_chk13 (v111 : BitVec 32) : Prop :=
  (∀ a, (k0_off20 v111) a + S1x1x257x600.size a ≤ S1x8x257x600.size a)
instance k0_chk13.dec : ∀ (v111 : BitVec 32), Decidable (k0_chk13 v111) := fun v111 => decidable_of_iff' _ (Iff.of_eq (k0_chk13.eq_1 v111))
theorem k0_off20_inb : ∀ (v111 : BitVec 32) (k0_hw13 : k0_chk13 v111), ∀ a, (k0_off20 v111) a + S1x1x257x600.size a ≤ S1x8x257x600.size a := fun v111 k0_hw13 => k0_hw13

def k0_off21 (v113 : BitVec 32) : Fin 4 → Nat :=
  let c0_90 : Index := 0#32
  let v120 : Index := Scalar.indexCast v113
  let c0_91 : Index := 0#32
  let c0_92 : Index := 0#32
  ![0, v120.toNat, 0, 0]

def k0_chk14 (v113 : BitVec 32) : Prop :=
  (∀ a, (k0_off21 v113) a + S1x1x257x600.size a ≤ S1x8x257x600.size a)
instance k0_chk14.dec : ∀ (v113 : BitVec 32), Decidable (k0_chk14 v113) := fun v113 => decidable_of_iff' _ (Iff.of_eq (k0_chk14.eq_1 v113))
theorem k0_off21_inb : ∀ (v113 : BitVec 32) (k0_hw14 : k0_chk14 v113), ∀ a, (k0_off21 v113) a + S1x1x257x600.size a ≤ S1x8x257x600.size a := fun v113 k0_hw14 => k0_hw14

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

abbrev stage0_0 : Fin 2 → Memref sig .tc .vmem S1x8x257x600 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S7x2x257x600 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  numel1_S1 : S1.numel = 1
  h_S1x1x257x600 : 0 < S1x1x257x600.numel
  shapeCasts_S1x1x257x600_S257x600 : S1x1x257x600.ShapeCasts S257x600
  inb_S7x2x257x600_S1x1x257x600_0_0_0_0 : ∀ a, (![0, 0, 0, 0] : Fin 4 → Nat) a + S1x1x257x600.size a ≤ S7x2x257x600.size a
  shapeCasts_S257x600_S1x1x257x600 : S257x600.ShapeCasts S1x1x257x600
  inb_S7x2x257x600_S1x1x257x600_0_1_0_0 : ∀ a, (![0, 1, 0, 0] : Fin 4 → Nat) a + S1x1x257x600.size a ≤ S7x2x257x600.size a
  inb_S7x2x257x600_S1x1x257x600_1_0_0_0 : ∀ a, (![1, 0, 0, 0] : Fin 4 → Nat) a + S1x1x257x600.size a ≤ S7x2x257x600.size a
  inb_S7x2x257x600_S1x1x257x600_1_1_0_0 : ∀ a, (![1, 1, 0, 0] : Fin 4 → Nat) a + S1x1x257x600.size a ≤ S7x2x257x600.size a
  inb_S7x2x257x600_S1x1x257x600_2_0_0_0 : ∀ a, (![2, 0, 0, 0] : Fin 4 → Nat) a + S1x1x257x600.size a ≤ S7x2x257x600.size a
  inb_S7x2x257x600_S1x1x257x600_2_1_0_0 : ∀ a, (![2, 1, 0, 0] : Fin 4 → Nat) a + S1x1x257x600.size a ≤ S7x2x257x600.size a
  inb_S7x2x257x600_S1x1x257x600_3_0_0_0 : ∀ a, (![3, 0, 0, 0] : Fin 4 → Nat) a + S1x1x257x600.size a ≤ S7x2x257x600.size a
  inb_S7x2x257x600_S1x1x257x600_3_1_0_0 : ∀ a, (![3, 1, 0, 0] : Fin 4 → Nat) a + S1x1x257x600.size a ≤ S7x2x257x600.size a
  inb_S7x2x257x600_S1x1x257x600_4_0_0_0 : ∀ a, (![4, 0, 0, 0] : Fin 4 → Nat) a + S1x1x257x600.size a ≤ S7x2x257x600.size a
  inb_S7x2x257x600_S1x1x257x600_4_1_0_0 : ∀ a, (![4, 1, 0, 0] : Fin 4 → Nat) a + S1x1x257x600.size a ≤ S7x2x257x600.size a
  inb_S7x2x257x600_S1x1x257x600_5_0_0_0 : ∀ a, (![5, 0, 0, 0] : Fin 4 → Nat) a + S1x1x257x600.size a ≤ S7x2x257x600.size a
  inb_S7x2x257x600_S1x1x257x600_5_1_0_0 : ∀ a, (![5, 1, 0, 0] : Fin 4 → Nat) a + S1x1x257x600.size a ≤ S7x2x257x600.size a
  inb_S7x2x257x600_S1x1x257x600_6_0_0_0 : ∀ a, (![6, 0, 0, 0] : Fin 4 → Nat) a + S1x1x257x600.size a ≤ S7x2x257x600.size a
  inb_S7x2x257x600_S1x1x257x600_6_1_0_0 : ∀ a, (![6, 1, 0, 0] : Fin 4 → Nat) a + S1x1x257x600.size a ≤ S7x2x257x600.size a
  hrank0 : 0 < grid0.rank
  k0_off1_inb : ∀ i : grid0.Coords, ∀ a, (k0_off1 i) a + S1.size a ≤ S28.size a
  k0_off4_inb : ∀ i : grid0.Coords, ∀ a, (k0_off4 i) a + S1.size a ≤ S28.size a
  k0_off7_inb : ∀ i : grid0.Coords, ∀ a, (k0_off7 i) a + S1.size a ≤ S28.size a
  k0_off10_inb : ∀ i : grid0.Coords, ∀ a, (k0_off10 i) a + S1.size a ≤ S28.size a
  k0_off13_inb : ∀ i : grid0.Coords, ∀ a, (k0_off13 i) a + S1.size a ≤ S28.size a
  k0_off16_inb : ∀ i : grid0.Coords, ∀ a, (k0_off16 i) a + S1.size a ≤ S28.size a
  k0_off19_inb : ∀ i : grid0.Coords, ∀ a, (k0_off19 i) a + S1.size a ≤ S28.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x257x600.size a ≤ S8x8x257x600.size a
  hwx0_0 : ∀ i : grid0.Coords, EltTy.bits .f32 = 32 ∨ (Rect.block (s := S8x8x257x600) S1x8x257x600.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S7x2x257x600.size a ≤ S224x2x257x600.size a
  hwx0_1 : ∀ i : grid0.Coords, EltTy.bits .f32 = 32 ∨ (Rect.block (s := S224x2x257x600) S7x2x257x600.size (cc0_transform_1 i) (hinb0_1 i)).WholeWords (EltTy.packing .f32)

variable [Facts₀]

abbrev spec0_0 : Pipeline.WinSpec sig grid0.rank :=
  Pipeline.WinSpec.ofSpec (Memref.whole main_arg0) S1x8x257x600.size reads0_0 false false 2 stage0_0 sem0_0 nbuf0_0 hstage0_0

abbrev spec0_1 : Pipeline.WinSpec sig grid0.rank :=
  Pipeline.WinSpec.ofSpec (Memref.whole main_v0) S7x2x257x600.size reads0_1 true false 2 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_0 | 1 => cc0_transform_1 | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | ⟨_ + 2, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | ⟨_ + 2, h⟩ => absurd h (Nat.not_lt.2 (Nat.le_add_left _ _))

class Facts : Prop extends Facts₀ where
  harr0 : ∀ w, (spec0 w).arr.IsWhole

variable [Facts]
-- ==== ReferenceIdeal.lean ====
abbrev S8x8x257x600 : Shape := ⟨4, ![8, 8, 257, 600]⟩
abbrev S28 : Shape := ⟨1, ![28]⟩
abbrev S_ : Shape := ⟨0, ![]⟩
abbrev S28x1 : Shape := ⟨2, ![28, 1]⟩
abbrev S8x28x257x600 : Shape := ⟨4, ![8, 28, 257, 600]⟩
abbrev S8x28x1x257x600 : Shape := ⟨5, ![8, 28, 1, 257, 600]⟩
abbrev S8x28x2x257x600 : Shape := ⟨5, ![8, 28, 2, 257, 600]⟩
abbrev S224x2x257x600 : Shape := ⟨4, ![224, 2, 257, 600]⟩

abbrev nBuf : Space → Nat
  | .hbm => 21
  | .vmem => 0
  | .smem => 0
  | _ => 0

abbrev bufTy : (tb : Table) → Fin (tcTables nBuf tb) → BufTy
  | .hbm, ⟨0, _⟩ => ⟨S8x8x257x600, .f32⟩
  | .hbm, ⟨1, _⟩ => ⟨S28, .i32⟩
  | .hbm, ⟨2, _⟩ => ⟨S28, .i1⟩
  | .hbm, ⟨3, _⟩ => ⟨S28, .i32⟩
  | .hbm, ⟨4, _⟩ => ⟨S28, .i1⟩
  | .hbm, ⟨5, _⟩ => ⟨S_, .i32⟩
  | .hbm, ⟨6, _⟩ => ⟨S28, .i32⟩
  | .hbm, ⟨7, _⟩ => ⟨S28, .i32⟩
  | .hbm, ⟨8, _⟩ => ⟨S28, .i32⟩
  | .hbm, ⟨9, _⟩ => ⟨S28x1, .i32⟩
  | .hbm, ⟨10, _⟩ => ⟨S8x28x257x600, .f32⟩
  | .hbm, ⟨11, _⟩ => ⟨S_, .i32⟩
  | .hbm, ⟨12, _⟩ => ⟨S28, .i32⟩
  | .hbm, ⟨13, _⟩ => ⟨S28, .i32⟩
  | .hbm, ⟨14, _⟩ => ⟨S28, .i32⟩
  | .hbm, ⟨15, _⟩ => ⟨S28x1, .i32⟩
  | .hbm, ⟨16, _⟩ => ⟨S8x28x257x600, .f32⟩
  | .hbm, ⟨17, _⟩ => ⟨S8x28x1x257x600, .f32⟩
  | .hbm, ⟨18, _⟩ => ⟨S8x28x1x257x600, .f32⟩
  | .hbm, ⟨19, _⟩ => ⟨S8x28x2x257x600, .f32⟩
  | .hbm, ⟨20, _⟩ => ⟨S224x2x257x600, .f32⟩
  | _, _ => ⟨S8x8x257x600, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_c_2 : Ref sig .tc := ⟨.hbm, 4, rfl⟩
abbrev main_c_3 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  bcast_S_S28 : S_.BroadcastsInDim S28 (![] : Fin 0 → Fin S28.rank)
  bcast_S28_S28x1_0 : S28.BroadcastsInDim S28x1 (![0] : Fin 1 → Fin S28x1.rank)
  bcast_S8x28x257x600_S8x28x1x257x600_0_1_3_4 : S8x28x257x600.BroadcastsInDim S8x28x1x257x600 (![0, 1, 3, 4] : Fin 4 → Fin S8x28x1x257x600.rank)
  concatenates_S8x28x1x257x600_S8x28x1x257x600_S8x28x2x257x600_d2 : Shape.Concatenates [S8x28x1x257x600, S8x28x1x257x600] S8x28x2x257x600 2
  shapeCasts_S8x28x2x257x600_S224x2x257x600 : S8x28x2x257x600.ShapeCasts S224x2x257x600
  gather_S8x8x257x600_S28x1_S8x28x257x600_023_1_n_n_1_1_81257600_wf : GatherDims.WF S8x8x257x600 S28x1 S8x28x257x600 [0, 2, 3] [1] [] [1] [] 1 ![8, 1, 257, 600]

variable [Facts₀]

def gather_S8x8x257x600_S28x1_S8x28x257x600_023_1_n_n_1_1_81257600 : GatherDims S8x8x257x600 S28x1 S8x28x257x600 where
  offsetDims := [0, 2, 3]
  collapsedSliceDims := [1]
  operandBatchingDims := []
  startIndicesBatchingDims := []
  startIndexMap := [1]
  indexVectorDim := 1
  sliceSizes := ![8, 1, 257, 600]
  wf := gather_S8x8x257x600_S28x1_S8x28x257x600_023_1_n_n_1_1_81257600_wf

class Facts : Prop extends Facts₀ where

variable [Facts]
-- ==== Proof.KernelTables.lean ====
/-
  The two channel tables of the pair-copy kernel, as the region finds them, and the side conditions the body assumes
  of their words.

  The kernel enumerates the 28 pairs (i, j), i < j, of 8 channels in row-major upper-triangular order; table 0 holds the
  pairs' first channels, table 1 their second channels. Both are literal constants of the program, so the region finds
  them holding exactly those words, whatever the launch memory held. Every word is a channel number below 8, which is
  what each load of a channel plane off the staged [1, 8, 257, 600] block asks of the word it is offset by.
-/
import proofs.«112704_j9242769622016_2_alg».proof.Proof.Gen.Kernel.Frame
import Idealize.ShloMosaic.Lib.StableHlo.Run

set_option maxRecDepth 16384

noncomputable section

namespace Cert.Kernel.Tables

open Cert.Kernel Cert.Kernel.Gen
open Idealize.ShloMosaic Idealize.ShloMosaic.TcCoe Idealize.SL.Sem

variable {F : FTy → Type} [FloatOps F]
variable (m : (ℓ : Loc nD τ sig) → Buf (Elt F) ℓ)

/-- The one index of the [28] tables with coordinate `k`. -/
def ik (k : Fin 28) : S28.Idx := fun a => match a with | ⟨0, _⟩ => k

/-- Table 0 as the region finds it: the literal first channels. -/
theorem tbl0_eq : tbl m 0 = fun i => lit0 (S28.rowMajor i) := by
  unfold tbl
  show V m 0 main_c = _
  dsimp only [V, hostOps0]
  after_results
  rfl

/-- Table 1 as the region finds it: the literal second channels. -/
theorem tbl1_eq : tbl m 1 = fun i => lit1 (S28.rowMajor i) := by
  unfold tbl
  show V m 0 main_c_0 = _
  dsimp only [V, hostOps0]
  after_results
  rfl

/-- Every first channel is below 8, -/
theorem lit0_lt : ∀ k : Fin 28, (lit0 k).toNat < 8 := by decide
/-- and so is every second channel. -/
theorem lit1_lt : ∀ k : Fin 28, (lit1 k).toNat < 8 := by decide

/-- A word read off table 0 through any rectangle is a table entry, -/
theorem word0_eq (r : LoadRect S28) (x : r.shape.Idx) :
    tbM0_0.view.readAt (Elt F) r (tbl m 0) x = lit0 (S28.rowMajor (r.idx x)) := by
  show tbl m 0 (r.idx x) = _
  rw [tbl0_eq]

/-- and likewise off table 1. -/
theorem word1_eq (r : LoadRect S28) (x : r.shape.Idx) :
    tbM0_1.view.readAt (Elt F) r (tbl m 1) x = lit1 (S28.rowMajor (r.idx x)) := by
  show tbl m 1 (r.idx x) = _
  rw [tbl1_eq]

/-- The word at a one-element rectangle at offset `k` is entry `k`. -/
theorem word0_at (off : Fin 1 → Nat) (k : Fin 28) (hoff : off 0 = k.val) (inb : ∀ a, off a + S1.size a ≤ S28.size a)
    (h1 : 0 < S1.numel) :
    tbM0_0.view.readAt (Elt F) (Rect.unit (s := S28) off S1.size inb).toLoadRect (tbl m 0) (Shape.Idx.first h1) = lit0 k := by
  rw [word0_eq]
  refine congrArg lit0 (Fin.ext ?_)
  rw [Shape.rowMajor_val_one]
  show off 0 + 1 * (Shape.Idx.first h1 (0 : Fin 1)).val = k.val
  rw [hoff]
  show k.val + 1 * 0 = k.val
  omega

theorem word1_at (off : Fin 1 → Nat) (k : Fin 28) (hoff : off 0 = k.val) (inb : ∀ a, off a + S1.size a ≤ S28.size a)
    (h1 : 0 < S1.numel) :
    tbM0_1.view.readAt (Elt F) (Rect.unit (s := S28) off S1.size inb).toLoadRect (tbl m 1) (Shape.Idx.first h1) = lit1 k := by
  rw [word1_eq]
  refine congrArg lit1 (Fin.ext ?_)
  rw [Shape.rowMajor_val_one]
  show off 0 + 1 * (Shape.Idx.first h1 (0 : Fin 1)).val = k.val
  rw [hoff]
  show k.val + 1 * 0 = k.val
  omega

/-- A channel plane [1, 1, 257, 600] at channel offset `w` lies inside the staged block [1, 8, 257, 600] when `w < 8`. -/
theorem plane_inb (w : BitVec 32) (hw : w.toNat < 8) :
    ∀ a, (![0, (Scalar.indexCast w).toNat, 0, 0] : Fin 4 → Nat) a + S1x1x257x600.size a ≤ S1x8x257x600.size a := by
  intro a
  have e : (Scalar.indexCast w).toNat = w.toNat := rfl
  fin_cases a <;> simp [e, S1x1x257x600, S1x8x257x600] <;> omega

/-- The pipeline asks nothing of the tables: no index map reads them. -/
theorem ok : Ok m := by unfold Ok ok0; trivial

/-- Every side condition the body assumes holds: each word it offsets a load by is a channel below 8. -/
theorem hyps (hO : Ok m) : Hyps m hO :=
  Hyps.of
    (fun c t => plane_inb _ (by rw [word0_eq]; exact lit0_lt _))
    (fun c t => plane_inb _ (by rw [word1_eq]; exact lit1_lt _))
    (fun c t => plane_inb _ (by rw [word0_eq]; exact lit0_lt _))
    (fun c t => plane_inb _ (by rw [word1_eq]; exact lit1_lt _))
    (fun c t => plane_inb _ (by rw [word0_eq]; exact lit0_lt _))
    (fun c t => plane_inb _ (by rw [word1_eq]; exact lit1_lt _))
    (fun c t => plane_inb _ (by rw [word0_eq]; exact lit0_lt _))
    (fun c t => plane_inb _ (by rw [word1_eq]; exact lit1_lt _))
    (fun c t => plane_inb _ (by rw [word0_eq]; exact lit0_lt _))
    (fun c t => plane_inb _ (by rw [word1_eq]; exact lit1_lt _))
    (fun c t => plane_inb _ (by rw [word0_eq]; exact lit0_lt _))
    (fun c t => plane_inb _ (by rw [word1_eq]; exact lit1_lt _))
    (fun c t => plane_inb _ (by rw [word0_eq]; exact lit0_lt _))
    (fun c t => plane_inb _ (by rw [word1_eq]; exact lit1_lt _))

end Cert.Kernel.Tables

end
-- ==== Proof.KernelIdealTables.lean ====
/-
  The two channel tables of the pair-copy kernel, as the region finds them, and the side conditions the body assumes
  of their words.

  The kernel enumerates the 28 pairs (i, j), i < j, of 8 channels in row-major upper-triangular order; table 0 holds the
  pairs' first channels, table 1 their second channels. Both are literal constants of the program, so the region finds
  them holding exactly those words, whatever the launch memory held. Every word is a channel number below 8, which is
  what each load of a channel plane off the staged [1, 8, 257, 600] block asks of the word it is offset by.
-/
import proofs.«112704_j9242769622016_2_alg».proof.Proof.Gen.KernelIdeal.Frame
import Idealize.ShloMosaic.Lib.StableHlo.Run

set_option maxRecDepth 16384

noncomputable section

namespace Cert.KernelIdeal.Tables

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- The one index of the [28] tables with coordinate `k`. -/
def ik (k : Fin 28) : S28.Idx := fun a => match a with | ⟨0, _⟩ => k

/-- Table 0 as the region finds it: the literal first channels. -/
theorem tbl0_eq : tbl m 0 = fun i => lit0 (S28.rowMajor i) := by
  unfold tbl
  show V m 0 main_c = _
  dsimp only [V, hostOps0]
  after_results
  rfl

/-- Table 1 as the region finds it: the literal second channels. -/
theorem tbl1_eq : tbl m 1 = fun i => lit1 (S28.rowMajor i) := by
  unfold tbl
  show V m 0 main_c_0 = _
  dsimp only [V, hostOps0]
  after_results
  rfl

/-- Every first channel is below 8, -/
theorem lit0_lt : ∀ k : Fin 28, (lit0 k).toNat < 8 := by decide
/-- and so is every second channel. -/
theorem lit1_lt : ∀ k : Fin 28, (lit1 k).toNat < 8 := by decide

/-- A word read off table 0 through any rectangle is a table entry, -/
theorem word0_eq (r : LoadRect S28) (x : r.shape.Idx) :
    tbM0_0.view.readAt (Elt F) r (tbl m 0) x = lit0 (S28.rowMajor (r.idx x)) := by
  show tbl m 0 (r.idx x) = _
  rw [tbl0_eq]

/-- and likewise off table 1. -/
theorem word1_eq (r : LoadRect S28) (x : r.shape.Idx) :
    tbM0_1.view.readAt (Elt F) r (tbl m 1) x = lit1 (S28.rowMajor (r.idx x)) := by
  show tbl m 1 (r.idx x) = _
  rw [tbl1_eq]

/-- The word at a one-element rectangle at offset `k` is entry `k`. -/
theorem word0_at (off : Fin 1 → Nat) (k : Fin 28) (hoff : off 0 = k.val) (inb : ∀ a, off a + S1.size a ≤ S28.size a)
    (h1 : 0 < S1.numel) :
    tbM0_0.view.readAt (Elt F) (Rect.unit (s := S28) off S1.size inb).toLoadRect (tbl m 0) (Shape.Idx.first h1) = lit0 k := by
  rw [word0_eq]
  refine congrArg lit0 (Fin.ext ?_)
  rw [Shape.rowMajor_val_one]
  show off 0 + 1 * (Shape.Idx.first h1 (0 : Fin 1)).val = k.val
  rw [hoff]
  show k.val + 1 * 0 = k.val
  omega

theorem word1_at (off : Fin 1 → Nat) (k : Fin 28) (hoff : off 0 = k.val) (inb : ∀ a, off a + S1.size a ≤ S28.size a)
    (h1 : 0 < S1.numel) :
    tbM0_1.view.readAt (Elt F) (Rect.unit (s := S28) off S1.size inb).toLoadRect (tbl m 1) (Shape.Idx.first h1) = lit1 k := by
  rw [word1_eq]
  refine congrArg lit1 (Fin.ext ?_)
  rw [Shape.rowMajor_val_one]
  show off 0 + 1 * (Shape.Idx.first h1 (0 : Fin 1)).val = k.val
  rw [hoff]
  show k.val + 1 * 0 = k.val
  omega

/-- A channel plane [1, 1, 257, 600] at channel offset `w` lies inside the staged block [1, 8, 257, 600] when `w < 8`. -/
theorem plane_inb (w : BitVec 32) (hw : w.toNat < 8) :
    ∀ a, (![0, (Scalar.indexCast w).toNat, 0, 0] : Fin 4 → Nat) a + S1x1x257x600.size a ≤ S1x8x257x600.size a := by
  intro a
  have e : (Scalar.indexCast w).toNat = w.toNat := rfl
  fin_cases a <;> simp [e, S1x1x257x600, S1x8x257x600] <;> omega

/-- The pipeline asks nothing of the tables: no index map reads them. -/
theorem ok : Ok m := by unfold Ok ok0; trivial

/-- Every side condition the body assumes holds: each word it offsets a load by is a channel below 8. -/
theorem hyps (hO : Ok m) : Hyps m hO :=
  Hyps.of
    (fun c t => plane_inb _ (by rw [word0_eq]; exact lit0_lt _))
    (fun c t => plane_inb _ (by rw [word1_eq]; exact lit1_lt _))
    (fun c t => plane_inb _ (by rw [word0_eq]; exact lit0_lt _))
    (fun c t => plane_inb _ (by rw [word1_eq]; exact lit1_lt _))
    (fun c t => plane_inb _ (by rw [word0_eq]; exact lit0_lt _))
    (fun c t => plane_inb _ (by rw [word1_eq]; exact lit1_lt _))
    (fun c t => plane_inb _ (by rw [word0_eq]; exact lit0_lt _))
    (fun c t => plane_inb _ (by rw [word1_eq]; exact lit1_lt _))
    (fun c t => plane_inb _ (by rw [word0_eq]; exact lit0_lt _))
    (fun c t => plane_inb _ (by rw [word1_eq]; exact lit1_lt _))
    (fun c t => plane_inb _ (by rw [word0_eq]; exact lit0_lt _))
    (fun c t => plane_inb _ (by rw [word1_eq]; exact lit1_lt _))
    (fun c t => plane_inb _ (by rw [word0_eq]; exact lit0_lt _))
    (fun c t => plane_inb _ (by rw [word1_eq]; exact lit1_lt _))

end Cert.KernelIdeal.Tables

end
-- ==== Proof.Spec.lean ====
/-
  The specification both programs meet: the pair planes.

  From data of shape [8, 8, 257, 600] (batch, channel, frequency, time) the result of shape [224, 2, 257, 600] holds, at
  row r = 28·b + p and slot s, the plane of batch b at channel `chan s p`, where the 28 pairs p = (i, j), i < j, of
  the 8 channels are listed in row-major upper-triangular order, slot 0 taking the pair's first channel i and slot 1 its
  second channel j. Nothing is computed: every entry of the result is one entry of the data.
-/
import Idealize.ShloMosaic.Lib.ValueIdx

namespace Cert.PairPlanes

open Idealize.ShloMosaic Idealize.ShloMosaic.ValueIdx

/-- The first channel of pair `p`. -/
def ch0 : Fin 28 → Fin 8 := ![0, 0, 0, 0, 0, 0, 0, 1, 1, 1, 1, 1, 1, 2, 2, 2, 2, 2, 3, 3, 3, 3, 4, 4, 4, 5, 5, 6]
/-- The second channel of pair `p`. -/
def ch1 : Fin 28 → Fin 8 := ![1, 2, 3, 4, 5, 6, 7, 2, 3, 4, 5, 6, 7, 3, 4, 5, 6, 7, 4, 5, 6, 7, 5, 6, 7, 6, 7, 7]

/-- The channel slot `s` of pair `p` shows. -/
def chan (s : Fin 2) (p : Fin 28) : Fin 8 := if s.val = 0 then ch0 p else ch1 p

theorem chan_zero (p : Fin 28) : chan 0 p = ch0 p := rfl
theorem chan_one (p : Fin 28) : chan 1 p = ch1 p := rfl

/-- The batch and the pair of row `r` of the result. -/
def batchOf (r : Fin 224) : Fin 8 := ⟨r.val / 28, by omega⟩
def pairOf (r : Fin 224) : Fin 28 := ⟨r.val % 28, by omega⟩

/-- The result at row `r`, slot `s`, frequency `f`, time `t`. -/
def pairsAt {α : Type} (x : (⟨4, ![8, 8, 257, 600]⟩ : Shape).Idx → α) (r : Fin 224) (s : Fin 2) (f : Fin 257) (t : Fin 600) : α :=
  x (ix4 (batchOf r) (chan s (pairOf r)) f t)

/-- The whole result array. -/
def pairs {α : Type} (x : (⟨4, ![8, 8, 257, 600]⟩ : Shape).Idx → α) : (⟨4, ![224, 2, 257, 600]⟩ : Shape).Idx → α :=
  fun j => pairsAt x (j 0) (j 1) (j 2) (j 3)

theorem pairs_ix4 {α : Type} (x : (⟨4, ![8, 8, 257, 600]⟩ : Shape).Idx → α) (r : Fin 224) (s : Fin 2) (f : Fin 257) (t : Fin 600) :
    pairs x (ix4 r s f t) = pairsAt x r s f t := rfl

end Cert.PairPlanes
-- ==== Proof.KernelIdealBlock.lean ====
/-
  What one grid point leaves in its output block.

  At the point with pair-group coordinate pg the body runs 7 pairs g = 0 … 6: for pair number p = 7·pg + g it reads the
  pair's two channels off the tables and stores the plane of the staged batch block at the first channel into slot 0 of
  row g of the output block, the plane at the second channel into slot 1. The 14 stores tile the [7, 2, 257, 600] block,
  and every store's payload is the same function of the block index read at the store's own indices: entry
  (g, s, f, t) of the block is entry (0, chan s (7·pg + g), f, t) of the staged input block. The shape casts around
  each load and store ([1, 1, 257, 600] ↔ [257, 600]) cancel.
-/
import proofs.«112704_j9242769622016_2_alg».proof.Proof.KernelIdealTables
import proofs.«112704_j9242769622016_2_alg».proof.Proof.Spec
import Idealize.ShloMosaic.Lib.Pipeline.Value

set_option maxRecDepth 16384

noncomputable section

namespace Cert.KernelIdeal.Block

open Cert.KernelIdeal Cert.KernelIdeal.Gen Cert.KernelIdeal.Tables Cert.PairPlanes
open Idealize.ShloMosaic Idealize.ShloMosaic.TcCoe Idealize.SL.Sem Idealize.ShloMosaic.ValueIdx

variable {F : FTy → Type} [FloatOps F]
variable (m : (ℓ : Loc nD τ sig) → Buf (Elt F) ℓ)

/-- The output block of the point with pair-group coordinate `pg`, as a function of the staged input block. -/
def blockOf {α : Type} (x0 : S1x8x257x600.Idx → α) (pg : Fin 4) : S7x2x257x600.Idx → α :=
  fun y => x0 (ix4 (0 : Fin 1) (chan (y 1) ⟨7 * pg.val + (y 0).val, by have := (y 0).isLt; have : (y 0).val < 7 := this; omega⟩) (y 2) (y 3))

/-- The literal first channels are the specification's, -/
theorem lit0_chan : ∀ k : Fin 28, (lit0 k).toNat = (chan 0 k).val := by decide
/-- and so are the literal second channels. -/
theorem lit1_chan : ∀ k : Fin 28, (lit1 k).toNat = (chan 1 k).val := by decide

/-- The word the body reads off table 0 for pair `g` of its group is the first channel of pair 7·pg + g; -/
theorem word0_chan (i : grid0.Coords) (g : Fin 7) (off : Fin 1 → Nat) (hoff : off = ![7 * (i 1).val + g.val])
    (inb : ∀ a, off a + S1.size a ≤ S28.size a) (h1 : 0 < S1.numel) :
    (tbM0_0.view.readAt (Elt F) (Rect.unit (s := S28) off S1.size inb).toLoadRect (tbl m 0) (Shape.Idx.first h1)).toNat
      = (chan 0 ⟨7 * (i 1).val + g.val, by have := (i 1).isLt; have : (i 1).val < 4 := this; omega⟩).val := by
  rw [word0_at m off ⟨7 * (i 1).val + g.val, by have := (i 1).isLt; have : (i 1).val < 4 := this; omega⟩ (by rw [hoff]; rfl) inb h1]
  exact lit0_chan _

/-- the word off table 1 its second channel. -/
theorem word1_chan (i : grid0.Coords) (g : Fin 7) (off : Fin 1 → Nat) (hoff : off = ![7 * (i 1).val + g.val])
    (inb : ∀ a, off a + S1.size a ≤ S28.size a) (h1 : 0 < S1.numel) :
    (tbM0_1.view.readAt (Elt F) (Rect.unit (s := S28) off S1.size inb).toLoadRect (tbl m 1) (Shape.Idx.first h1)).toNat
      = (chan 1 ⟨7 * (i 1).val + g.val, by have := (i 1).isLt; have : (i 1).val < 4 := this; omega⟩).val := by
  rw [word1_at m off ⟨7 * (i 1).val + g.val, by have := (i 1).isLt; have : (i 1).val < 4 := this; omega⟩ (by rw [hoff]; rfl) inb h1]
  exact lit1_chan _

/-- A payload between its two shape casts is the loaded plane. -/
theorem pay1_eq (v : Vec F S1x1x257x600 .f32) : k0_pay1 v = v := by unfold k0_pay1; dsimp only; rw [shapeCast_shapeCast]
theorem pay2_eq (v : Vec F S1x1x257x600 .f32) : k0_pay2 v = v := by unfold k0_pay2; dsimp only; rw [shapeCast_shapeCast]
theorem pay3_eq (v : Vec F S1x1x257x600 .f32) : k0_pay3 v = v := by unfold k0_pay3; dsimp only; rw [shapeCast_shapeCast]
theorem pay4_eq (v : Vec F S1x1x257x600 .f32) : k0_pay4 v = v := by unfold k0_pay4; dsimp only; rw [shapeCast_shapeCast]
theorem pay7_eq (v : Vec F S1x1x257x600 .f32) : k0_pay7 v = v := by unfold k0_pay7; dsimp only; rw [shapeCast_shapeCast]
theorem pay8_eq (v : Vec F S1x1x257x600 .f32) : k0_pay8 v = v := by unfold k0_pay8; dsimp only; rw [shapeCast_shapeCast]
theorem pay9_eq (v : Vec F S1x1x257x600 .f32) : k0_pay9 v = v := by unfold k0_pay9; dsimp only; rw [shapeCast_shapeCast]
theorem pay10_eq (v : Vec F S1x1x257x600 .f32) : k0_pay10 v = v := by unfold k0_pay10; dsimp only; rw [shapeCast_shapeCast]
theorem pay11_eq (v : Vec F S1x1x257x600 .f32) : k0_pay11 v = v := by unfold k0_pay11; dsimp only; rw [shapeCast_shapeCast]
theorem pay12_eq (v : Vec F S1x1x257x600 .f32) : k0_pay12 v = v := by unfold k0_pay12; dsimp only; rw [shapeCast_shapeCast]
theorem pay13_eq (v : Vec F S1x1x257x600 .f32) : k0_pay13 v = v := by unfold k0_pay13; dsimp only; rw [shapeCast_shapeCast]
theorem pay14_eq (v : Vec F S1x1x257x600 .f32) : k0_pay14 v = v := by unfold k0_pay14; dsimp only; rw [shapeCast_shapeCast]
theorem pay15_eq (v : Vec F S1x1x257x600 .f32) : k0_pay15 v = v := by unfold k0_pay15; dsimp only; rw [shapeCast_shapeCast]
/-- The plane carried from one part of the body to the next goes through the same two casts. -/
theorem pay65_eq (v : Vec F S1x1x257x600 .f32) : k0_pay6 (k0_pay5 v) = v := by unfold k0_pay6 k0_pay5; dsimp only; rw [shapeCast_shapeCast]

/-- A [1, 1, 257, 600] plane index has leading coordinates 0. -/
theorem plane0 (x : S1x1x257x600.Idx) : (x 0).val = 0 := by
  have h := (x 0).isLt
  have e : S1x1x257x600.size 0 = 1 := by decide
  omega
theorem plane1 (x : S1x1x257x600.Idx) : (x 1).val = 0 := by
  have h := (x 1).isLt
  have e : S1x1x257x600.size 1 = 1 := by decide
  omega

/-- ONE STORE OF THE BODY: the plane loaded off the staged block at the channel word `w`, stored at row `g`, slot `s`
    of the output block, is the block's function at the store's indices, when `w` is the channel of slot `s` of pair
    7·pg + g. -/
theorem plane_piece (arg4 : Memref sig .tc .vmem S1x8x257x600 .f32) (harg4 : arg4.IsWhole) (x0 : Vec F S1x8x257x600 .f32)
    (pg : Fin 4) (g : Fin 7) (s : Fin 2) (w : BitVec 32)
    (hw : w.toNat = (chan s ⟨7 * pg.val + g.val, by omega⟩).val)
    (inbL : ∀ a, (![0, (Scalar.indexCast w).toNat, 0, 0] : Fin 4 → Nat) a + S1x1x257x600.size a ≤ S1x8x257x600.size a)
    (inbS : ∀ a, (![g.val, s.val, 0, 0] : Fin 4 → Nat) a + S1x1x257x600.size a ≤ S7x2x257x600.size a)
    (x : S1x1x257x600.Idx) :
    arg4.view.readAt (Elt F) (Rect.unit (s := S1x8x257x600) ![0, (Scalar.indexCast w).toNat, 0, 0] S1x1x257x600.size inbL).toLoadRect (harg4.unread x0) x
      = blockOf x0 pg ((Rect.unit (s := S7x2x257x600) ![g.val, s.val, 0, 0] S1x1x257x600.size inbS).emb x) := by
  rw [View.readAt_eq_ld, Memref.IsWhole.read_unread]
  show x0 _ = x0 _
  refine congrArg x0 (funext fun a => Fin.ext ?_)
  have e : (Scalar.indexCast w).toNat = w.toNat := rfl
  have h0 := plane0 x
  have h1 := plane1 x
  match a with
  | ⟨0, _⟩ => show 0 + 1 * (x 0).val = 0; omega
  | ⟨1, _⟩ =>
    show (Scalar.indexCast w).toNat + 1 * (x 1).val = (chan _ _).val
    rw [e, hw, h1]
    have es : ((Rect.unit (s := S7x2x257x600) ![g.val, s.val, 0, 0] S1x1x257x600.size inbS).emb x 1) = s := by
      apply Fin.ext; show s.val + 1 * (x 1).val = s.val; omega
    have eg : ((Rect.unit (s := S7x2x257x600) ![g.val, s.val, 0, 0] S1x1x257x600.size inbS).emb x 0).val = g.val := by
      show g.val + 1 * (x 0).val = g.val; omega
    simp only [es, eg, Nat.mul_zero, Nat.add_zero]
  | ⟨2, _⟩ => show 0 + 1 * (x 2).val = 0 + 1 * (x 2).val; rfl
  | ⟨3, _⟩ => show 0 + 1 * (x 3).val = 0 + 1 * (x 3).val; rfl

/-- WHAT THE BODY LEAVES in the output block at the point with coordinates `i`: `blockOf` of the staged input block. -/
theorem out_eq (c : Dev nD) (i : grid0.Coords) (arg4 : Memref sig .tc .vmem S1x8x257x600 .f32) (harg4 : arg4.IsWhole) (arg5 : Memref sig .tc .vmem S7x2x257x600 .f32) (harg5 : arg5.IsWhole)
    (x0 : Vec F S1x8x257x600 .f32) (k0_hw1 : k0_chk1 (tbM0_0.view.readAt (Elt F) (Rect.unit (s := S28) (k0_off1 i) S1.size (k0_off1_inb i)).toLoadRect (tbl m 0) (Shape.Idx.first (numel1_S1.symm ▸ Nat.one_pos)))) (k0_hw2 : k0_chk2 (tbM0_1.view.readAt (Elt F) (Rect.unit (s := S28) (k0_off1 i) S1.size (k0_off1_inb i)).toLoadRect (tbl m 1) (Shape.Idx.first (numel1_S1.symm ▸ Nat.one_pos)))) (k0_hw3 : k0_chk3 (tbM0_0.view.readAt (Elt F) (Rect.unit (s := S28) (k0_off4 i) S1.size (k0_off4_inb i)).toLoadRect (tbl m 0) (Shape.Idx.first (numel1_S1.symm ▸ Nat.one_pos)))) (k0_hw4 : k0_chk4 (tbM0_1.view.readAt (Elt F) (Rect.unit (s := S28) (k0_off4 i) S1.size (k0_off4_inb i)).toLoadRect (tbl m 1) (Shape.Idx.first (numel1_S1.symm ▸ Nat.one_pos)))) (k0_hw5 : k0_chk5 (tbM0_0.view.readAt (Elt F) (Rect.unit (s := S28) (k0_off7 i) S1.size (k0_off7_inb i)).toLoadRect (tbl m 0) (Shape.Idx.first (numel1_S1.symm ▸ Nat.one_pos)))) (k0_hw6 : k0_chk6 (tbM0_1.view.readAt (Elt F) (Rect.unit (s := S28) (k0_off7 i) S1.size (k0_off7_inb i)).toLoadRect (tbl m 1) (Shape.Idx.first (numel1_S1.symm ▸ Nat.one_pos)))) (k0_hw7 : k0_chk7 (tbM0_0.view.readAt (Elt F) (Rect.unit (s := S28) (k0_off10 i) S1.size (k0_off10_inb i)).toLoadRect (tbl m 0) (Shape.Idx.first (numel1_S1.symm ▸ Nat.one_pos)))) (k0_hw8 : k0_chk8 (tbM0_1.view.readAt (Elt F) (Rect.unit (s := S28) (k0_off10 i) S1.size (k0_off10_inb i)).toLoadRect (tbl m 1) (Shape.Idx.first (numel1_S1.symm ▸ Nat.one_pos)))) (k0_hw9 : k0_chk9 (tbM0_0.view.readAt (Elt F) (Rect.unit (s := S28) (k0_off13 i) S1.size (k0_off13_inb i)).toLoadRect (tbl m 0) (Shape.Idx.first (numel1_S1.symm ▸ Nat.one_pos)))) (k0_hw10 : k0_chk10 (tbM0_1.view.readAt (Elt F) (Rect.unit (s := S28) (k0_off13 i) S1.size (k0_off13_inb i)).toLoadRect (tbl m 1) (Shape.Idx.first (numel1_S1.symm ▸ Nat.one_pos)))) (k0_hw11 : k0_chk11 (tbM0_0.view.readAt (Elt F) (Rect.unit (s := S28) (k0_off16 i) S1.size (k0_off16_inb i)).toLoadRect (tbl m 0) (Shape.Idx.first (numel1_S1.symm ▸ Nat.one_pos)))) (k0_hw12 : k0_chk12 (tbM0_1.view.readAt (Elt F) (Rect.unit (s := S28) (k0_off16 i) S1.size (k0_off16_inb i)).toLoadRect (tbl m 1) (Shape.Idx.first (numel1_S1.symm ▸ Nat.one_pos)))) (k0_hw13 : k0_chk13 (tbM0_0.view.readAt (Elt F) (Rect.unit (s := S28) (k0_off19 i) S1.size (k0_off19_inb i)).toLoadRect (tbl m 0) (Shape.Idx.first (numel1_S1.symm ▸ Nat.one_pos)))) (k0_hw14 : k0_chk14 (tbM0_1.view.readAt (Elt F) (Rect.unit (s := S28) (k0_off19 i) S1.size (k0_off19_inb i)).toLoadRect (tbl m 1) (Shape.Idx.first (numel1_S1.symm ▸ Nat.one_pos)))) :
    out0_A_1 c i arg4 harg4 arg5 harg5 x0 (tbl m 0) (tbl m 1) k0_hw1 k0_hw2 k0_hw3 k0_hw4 k0_hw5 k0_hw6 k0_hw7 k0_hw8 k0_hw9 k0_hw10 k0_hw11 k0_hw12 k0_hw13 k0_hw14 = blockOf x0 (i 1) := by
  unfold out0_A_1
  rw [View.read_writes_eq_canon _ _ _ (cover0_A_1 c i arg4 harg4 arg5 harg5 x0 (tbl m 0) (tbl m 1) k0_hw1 k0_hw2 k0_hw3 k0_hw4 k0_hw5 k0_hw6 k0_hw7 k0_hw8 k0_hw9 k0_hw10 k0_hw11 k0_hw12 k0_hw13 k0_hw14)]
  funext y
  refine View.canon_apply_of_pieces (blockOf x0 (i 1)) _ ?_ y (cover0_A_1 c i arg4 harg4 arg5 harg5 x0 (tbl m 0) (tbl m 1) k0_hw1 k0_hw2 k0_hw3 k0_hw4 k0_hw5 k0_hw6 k0_hw7 k0_hw8 k0_hw9 k0_hw10 k0_hw11 k0_hw12 k0_hw13 k0_hw14 y)
  unfold kernelRun0_A
  dsimp only
  sl_unfold_run_names
  intro p hp
  simp only [List.mem_cons, List.mem_nil_iff, or_false] at hp
  rcases hp with rfl | rfl | rfl | rfl | rfl | rfl | rfl | rfl | rfl | rfl | rfl | rfl | rfl | rfl
  · intro x
    dsimp only
    rw [pay2_eq]
    exact plane_piece arg4 harg4 x0 (i 1) ⟨6, by omega⟩ ⟨1, by omega⟩ _ (word1_chan m i ⟨6, by omega⟩ _ (k0_off19_eq i) _ _) _ _ x
  · intro x
    dsimp only
    rw [pay1_eq]
    exact plane_piece arg4 harg4 x0 (i 1) ⟨6, by omega⟩ ⟨0, by omega⟩ _ (word0_chan m i ⟨6, by omega⟩ _ (k0_off19_eq i) _ _) _ _ x
  · intro x
    dsimp only
    rw [pay15_eq]
    exact plane_piece arg4 harg4 x0 (i 1) ⟨5, by omega⟩ ⟨1, by omega⟩ _ (word1_chan m i ⟨5, by omega⟩ _ (k0_off16_eq i) _ _) _ _ x
  · intro x
    dsimp only
    rw [pay14_eq]
    exact plane_piece arg4 harg4 x0 (i 1) ⟨5, by omega⟩ ⟨0, by omega⟩ _ (word0_chan m i ⟨5, by omega⟩ _ (k0_off16_eq i) _ _) _ _ x
  · intro x
    dsimp only
    rw [pay13_eq]
    exact plane_piece arg4 harg4 x0 (i 1) ⟨4, by omega⟩ ⟨1, by omega⟩ _ (word1_chan m i ⟨4, by omega⟩ _ (k0_off13_eq i) _ _) _ _ x
  · intro x
    dsimp only
    rw [pay12_eq]
    exact plane_piece arg4 harg4 x0 (i 1) ⟨4, by omega⟩ ⟨0, by omega⟩ _ (word0_chan m i ⟨4, by omega⟩ _ (k0_off13_eq i) _ _) _ _ x
  · intro x
    dsimp only
    rw [pay11_eq]
    exact plane_piece arg4 harg4 x0 (i 1) ⟨3, by omega⟩ ⟨1, by omega⟩ _ (word1_chan m i ⟨3, by omega⟩ _ (k0_off10_eq i) _ _) _ _ x
  · intro x
    dsimp only
    rw [pay10_eq]
    exact plane_piece arg4 harg4 x0 (i 1) ⟨3, by omega⟩ ⟨0, by omega⟩ _ (word0_chan m i ⟨3, by omega⟩ _ (k0_off10_eq i) _ _) _ _ x
  · intro x
    dsimp only
    rw [pay9_eq]
    exact plane_piece arg4 harg4 x0 (i 1) ⟨2, by omega⟩ ⟨1, by omega⟩ _ (word1_chan m i ⟨2, by omega⟩ _ (k0_off7_eq i) _ _) _ _ x
  · intro x
    dsimp only
    rw [pay8_eq]
    exact plane_piece arg4 harg4 x0 (i 1) ⟨2, by omega⟩ ⟨0, by omega⟩ _ (word0_chan m i ⟨2, by omega⟩ _ (k0_off7_eq i) _ _) _ _ x
  · intro x
    dsimp only
    rw [pay7_eq]
    exact plane_piece arg4 harg4 x0 (i 1) ⟨1, by omega⟩ ⟨1, by omega⟩ _ (word1_chan m i ⟨1, by omega⟩ _ (k0_off4_eq i) _ _) _ _ x
  · intro x
    dsimp only
    rw [pay65_eq]
    exact plane_piece arg4 harg4 x0 (i 1) ⟨1, by omega⟩ ⟨0, by omega⟩ _ (word0_chan m i ⟨1, by omega⟩ _ (k0_off4_eq i) _ _) _ _ x
  · intro x
    dsimp only
    rw [pay4_eq]
    exact plane_piece arg4 harg4 x0 (i 1) ⟨0, by omega⟩ ⟨1, by omega⟩ _ (word1_chan m i ⟨0, by omega⟩ _ (k0_off1_eq i) _ _) _ _ x
  · intro x
    dsimp only
    rw [pay3_eq]
    exact plane_piece arg4 harg4 x0 (i 1) ⟨0, by omega⟩ ⟨0, by omega⟩ _ (word0_chan m i ⟨0, by omega⟩ _ (k0_off1_eq i) _ _) _ _ x

end Cert.KernelIdeal.Block

end
-- ==== Proof.KernelIdealValue.lean ====
/-
  The array the kernel leaves: the pair planes of its argument.

  The grid has 32 points t = 4·b + pg (batch b, pair group pg). Point t stages the whole channel block of batch b =
  t / 4 — block index (t / 4, 0, 0, 0) of the [8, 8, 257, 600] argument in blocks of [1, 8, 257, 600] — and writes back
  block (t, 0, 0, 0) of the [224, 2, 257, 600] result in blocks of [7, 2, 257, 600]: rows 7t … 7t + 6. Row 7t + g is row
  28·b + (7·pg + g), so entry (g, s, f, u) of the block the body leaves — the staged block at channel
  chan s (7·pg + g) — is the specification's entry at row 7t + g. The 32 blocks tile the result, so the array ends
  holding the specification everywhere.
-/
import proofs.«112704_j9242769622016_2_alg».proof.Proof.KernelIdealBlock
import Idealize.ShloMosaic.Lib.Pipeline.Value

set_option maxRecDepth 16384

noncomputable section

namespace Cert.KernelIdeal.KValue

open Cert.KernelIdeal Cert.KernelIdeal.Gen Cert.KernelIdeal.Tables Cert.KernelIdeal.Block Cert.PairPlanes
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ) (ρ : Dev nD → PrngReg)

/-- The printed index maps and the grid's coordinates, decided over the 32 points: the input's block index is the batch
    t / 4, the output's is t itself, and the pair-group coordinate is t % 4. -/
theorem idx_facts : ∀ t : Fin grid0.N,
    cc0_transform_0 (grid0.coords t) = ![t.val / 4, 0, 0, 0] ∧ cc0_transform_1 (grid0.coords t) = ![t.val, 0, 0, 0]
      ∧ (grid0.coords t 1).val = t.val % 4 := by decide +kernel

/-- A point's number is below 32. -/
theorem t_lt (t : Fin grid0.N) : t.val < 32 := N_0 ▸ t.isLt

set_option backward.isDefEq.respectTransparency.types false in
/-- THE STAGED INPUT BLOCK of point `t`, read off any contents `A` of the argument array: channel `ch` of batch t / 4. -/
theorem read_in (a : (pcfg0 (F := F)).Adm) (c : Dev nD) (A : Buf (Elt F) ((c : Thread nD τ).loc main_arg0)) (t : Fin (cfg0 a).N)
    (ch : Fin 8) (f : Fin 257) (u : Fin 600) :
    (((cfg0 a).win 0).blk t).view.read (Elt F) A (ix4 (0 : Fin 1) ch f u)
      = A (ix4 (⟨t.val / 4, by have := t_lt t; omega⟩ : Fin 8) ch f u) := by
  rw [View.read_apply]
  simp only [cast_eq]
  refine congrArg A (funext fun k => Fin.ext ?_)
  obtain ⟨e0, -, -⟩ := idx_facts t
  have e : ((cfg0 a).win 0).index t = ![t.val / 4, 0, 0, 0] := e0
  match k with
  | ⟨0, _⟩ => show ((cfg0 a).win 0).index t (0 : Fin 4) * 1 + 1 * 0 = t.val / 4; rw [e]; show t.val / 4 * 1 + 1 * 0 = t.val / 4; omega
  | ⟨1, _⟩ => show ((cfg0 a).win 0).index t (1 : Fin 4) * 8 + 1 * ch.val = ch.val; rw [e]; show 0 * 8 + 1 * ch.val = ch.val; omega
  | ⟨2, _⟩ => show ((cfg0 a).win 0).index t (2 : Fin 4) * 257 + 1 * f.val = f.val; rw [e]; show 0 * 257 + 1 * f.val = f.val; omega
  | ⟨3, _⟩ => show ((cfg0 a).win 0).index t (3 : Fin 4) * 600 + 1 * u.val = u.val; rw [e]; show 0 * 600 + 1 * u.val = u.val; omega

set_option backward.isDefEq.respectTransparency.types false in
/-- WHAT POINT `t` WRITES BACK, for any contents `A` of the argument array: the block the body leaves from the staged
    input block is block `t` of the pair planes of `A`. -/
theorem block_read (a : (pcfg0 (F := F)).Adm) (c : Dev nD) (A : Buf (Elt F) ((c : Thread nD τ).loc main_arg0)) (t : Fin (cfg0 a).N)
    (y : S7x2x257x600.Idx) :
    blockOf ((((cfg0 a).win 0).blk t).view.read (Elt F) A) (grid0.coords t 1) y
      = (((cfg0 a).win 1).blk t).view.read (Elt F) (pairs A) y := by
  obtain ⟨-, e1, e2⟩ := idx_facts t
  have e : ((cfg0 a).win 1).index t = ![t.val, 0, 0, 0] := e1
  have ht := t_lt t
  have hy0 : (y 0).val < 7 := (y 0).isLt
  have hy1 : (y 1).val < 2 := (y 1).isLt
  have hy2 : (y 2).val < 257 := (y 2).isLt
  have hy3 : (y 3).val < 600 := (y 3).isLt
  -- the element of the block sits at row 7t + g of the array
  have hemb : (((cfg0 a).win 1).blk t).view.emb y
      = ix4 (⟨7 * t.val + (y 0).val, by omega⟩ : Fin 224) (⟨(y 1).val, hy1⟩ : Fin 2) (⟨(y 2).val, hy2⟩ : Fin 257) (⟨(y 3).val, hy3⟩ : Fin 600) := by
    funext k
    apply Fin.ext
    match k with
    | ⟨0, _⟩ => show ((cfg0 a).win 1).index t (0 : Fin 4) * 7 + 1 * (y 0).val = 7 * t.val + (y 0).val; rw [e]; show t.val * 7 + 1 * (y 0).val = _; omega
    | ⟨1, _⟩ => show ((cfg0 a).win 1).index t (1 : Fin 4) * 2 + 1 * (y 1).val = (y 1).val; rw [e]; show 0 * 2 + 1 * (y 1).val = _; omega
    | ⟨2, _⟩ => show ((cfg0 a).win 1).index t (2 : Fin 4) * 257 + 1 * (y 2).val = (y 2).val; rw [e]; show 0 * 257 + 1 * (y 2).val = _; omega
    | ⟨3, _⟩ => show ((cfg0 a).win 1).index t (3 : Fin 4) * 600 + 1 * (y 3).val = (y 3).val; rw [e]; show 0 * 600 + 1 * (y 3).val = _; omega
  rw [View.read_apply (v := (((cfg0 a).win 1).blk t).view)]
  simp only [cast_eq]
  rw [hemb, pairs_ix4]
  unfold blockOf pairsAt
  rw [read_in a c A t]
  refine congrArg A ?_
  -- row 7t + g is batch t / 4, pair 7 (t % 4) + g
  have hb : batchOf (⟨7 * t.val + (y 0).val, by omega⟩ : Fin 224) = (⟨t.val / 4, by omega⟩ : Fin 8) := by
    apply Fin.ext; show (7 * t.val + (y 0).val) / 28 = t.val / 4; omega
  have hp : pairOf (⟨7 * t.val + (y 0).val, by omega⟩ : Fin 224)
      = (⟨7 * (grid0.coords t 1).val + (y 0).val, by rw [e2]; omega⟩ : Fin 28) := by
    apply Fin.ext; show (7 * t.val + (y 0).val) % 28 = 7 * (grid0.coords t 1).val + (y 0).val; rw [e2]; omega
  rw [hb, hp]
  rfl

/-- WHAT POINT `t` WRITES BACK is block `t` of the pair planes of the argument array as the region finds it. -/
theorem flushed_eq (hO : Ok m) (hH : Hyps m hO) (c : Dev nD) (t : Fin (cfgM m hO).N) :
    (dats m hO hH 0 c).flushed 1 t = (((cfgM m hO).win 1).blk t).view.read (Elt F) (pairs (V m c main_arg0)) := by
  show ((cfgM m hO).win 1).cut (grid0.coords t) ((dats m hO hH 0 c).after 1 t) = _
  rw [after0_1]
  unfold outsAt0
  rw [out_eq m c (grid0.coords t) (ms0_0 m hO t) (hs0_0 m hO t) (ms0_1 m hO t) (hs0_1 m hO t) (iblk m hO c 0 t)]
  funext y
  exact block_read (adm m hO) c (V m c main_arg0) t y

set_option backward.isDefEq.respectTransparency.types false in
/-- An index of the result array is in point `t`'s block iff each coordinate is in the block's range on its axis. -/
theorem mem_blk (a : (pcfg0 (F := F)).Adm) (t : Fin (cfg0 a).N) (i : S224x2x257x600.Idx) :
    i ∈ (((cfg0 a).win 1).blk t).view.set ↔ ∀ k : Fin 4, ((cfg0 a).win 1).index t k * S7x2x257x600.size k ≤ (i k).val ∧ (i k).val < ((cfg0 a).win 1).index t k * S7x2x257x600.size k + S7x2x257x600.size k := by
  show i ∈ ((View.whole main_v0).slice (((cfg0 a).win 1).rect t)).set ↔ _
  rw [View.set_slice_whole]
  exact Rect.mem_set_unit

/-- THE BLOCKS TILE THE RESULT: row r lies in the block of point r / 7. -/
theorem cover (a : (pcfg0 (F := F)).Adm) (i : S224x2x257x600.Idx) :
    ∃ t : Fin (cfg0 a).N, ((cfg0 a).win 1).flush t = true ∧ i ∈ (((cfg0 a).win 1).blk t).view.set := by
  have hi0 : (i 0).val < 224 := (i 0).isLt
  have hi1 : (i 1).val < 2 := (i 1).isLt
  have hi2 : (i 2).val < 257 := (i 2).isLt
  have hi3 : (i 3).val < 600 := (i 3).isLt
  have hN : (cfg0 a).N = 32 := N_0
  refine ⟨⟨(i 0).val / 7, by rw [hN]; omega⟩, flush0_1 a _, ?_⟩
  rw [mem_blk]
  obtain ⟨-, e1, -⟩ := idx_facts (⟨(i 0).val / 7, by rw [N_0]; omega⟩ : Fin grid0.N)
  have e : ((cfg0 a).win 1).index (⟨(i 0).val / 7, by rw [hN]; omega⟩ : Fin (cfg0 a).N) = ![(i 0).val / 7, 0, 0, 0] := e1
  intro k
  rw [e]
  match k with
  | ⟨0, _⟩ => show (i 0).val / 7 * 7 ≤ (i 0).val ∧ (i 0).val < (i 0).val / 7 * 7 + 7; omega
  | ⟨1, _⟩ => show 0 * 2 ≤ (i 1).val ∧ (i 1).val < 0 * 2 + 2; omega
  | ⟨2, _⟩ => show 0 * 257 ≤ (i 2).val ∧ (i 2).val < 0 * 257 + 257; omega
  | ⟨3, _⟩ => show 0 * 600 ≤ (i 3).val ∧ (i 3).val < 0 * 600 + 600; omega

/-- THE RESULT ARRAY after the run: the pair planes of the argument array as the region finds it. -/
theorem final (hO : Ok m) (hH : Hyps m hO) (c : Dev nD) :
    (dats m hO hH 0 c).arrAt 1 (cfgM m hO).N = pairs (V m c main_arg0) :=
  (dats m hO hH 0 c).arrAt_eq_of_cover 1 (pairs (V m c main_arg0)) (fun t _ => flushed_eq m hO hH c t) (cover (adm m hO))

/-- THE KERNEL'S RUN with its result named: every weakly fair execution terminates with the result array at the pair
    planes of the argument and the argument unchanged. -/
theorem run : θ_run defs (onTc (τ := τ) (main (F := F))) ⟨m, fun _ => 0, ρ⟩ fun r => ∀ c : Dev nD,
      r.2.mem ((c.tc : Thread nD τ).loc main_v0) = pairs (m ((c.tc : Thread nD τ).loc main_arg0))
      ∧ r.2.mem ((c.tc : Thread nD τ).loc main_arg0) = m ((c.tc : Thread nD τ).loc main_arg0) := by
  have hO : Ok m := ok m
  have hH : Hyps m hO := hyps m hO
  refine (θ_run defs _ _).mono (fun r h c => ?_) (run_main m ρ hO hH)
  refine ⟨((h c).1 1).trans ((final m hO hH c).trans (congrArg pairs (V_main_arg0 m c))), ?_⟩
  exact ((h c).1 0).trans (((dats m hO hH 0 c).arrAt_in 0 rfl _).trans ((A_eq m hO hH c 0).trans (V_main_arg0 m c)))

end Cert.KernelIdeal.KValue

end
-- ==== Proof.RefRun.lean ====
/-
  The reference program's run, read back.

  The reference is a straight line of 21 host operations with no kernel launch: for each of the two literal channel
  tables (the first and the second channels of the 28 pairs i < j of 8 channels) it normalises a negative index (a
  select whose condition is the constant false, so the table itself), turns it into a [28, 1] column, and gathers the
  channel planes of every batch along the channel axis; the two gathered [8, 28, 257, 600] arrays are given a unit axis,
  concatenated along it, and the [8, 28, 2, 257, 600] result is reshaped to [224, 2, 257, 600]. Every weakly fair
  execution terminates with the result buffer at that composed term of the argument and the argument unchanged.
-/
import proofs.«112704_j9242769622016_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 21 operations, in order. -/
abbrev ops : List (HloOp τ sig (Elt F)) :=
  [ nullary main_c (fun i => lit0 (S28.rowMajor i)),
    nullary main_c_0 (constantI S28 1 0#1),
    nullary main_c_1 (fun i => lit1 (S28.rowMajor i)),
    nullary main_c_2 (constantI S28 1 0#1),
    nullary main_c_3 (constantI S_ 32 8#32),
    unary main_c_3 main_v0 (broadcastInDim S28 ![] bcast_S_S28 : (⟨S_, .i32⟩ : BufTy).Contents (Elt F) → (⟨S28, .i32⟩ : BufTy).Contents (Elt F)),
    binary main_c main_v0 main_v1 (addi : (⟨S28, .i32⟩ : BufTy).Contents (Elt F) → (⟨S28, .i32⟩ : BufTy).Contents (Elt F) → (⟨S28, .i32⟩ : BufTy).Contents (Elt F)),
    ternary main_c_0 main_v1 main_c main_v2 (select : (⟨S28, .i1⟩ : BufTy).Contents (Elt F) → (⟨S28, .i32⟩ : BufTy).Contents (Elt F) → (⟨S28, .i32⟩ : BufTy).Contents (Elt F) → (⟨S28, .i32⟩ : BufTy).Contents (Elt F)),
    unary main_v2 main_v3 (broadcastInDim S28x1 ![0] bcast_S28_S28x1_0 : (⟨S28, .i32⟩ : BufTy).Contents (Elt F) → (⟨S28x1, .i32⟩ : BufTy).Contents (Elt F)),
    binary main_arg0 main_v3 main_v4 ((fun x i => Host.gather gather_S8x8x257x600_S28x1_S8x28x257x600_023_1_n_n_1_1_81257600 x i) : (⟨S8x8x257x600, .f32⟩ : BufTy).Contents (Elt F) → (⟨S28x1, .i32⟩ : BufTy).Contents (Elt F) → (⟨S8x28x257x600, .f32⟩ : BufTy).Contents (Elt F)),
    nullary main_c_4 (constantI S_ 32 8#32),
    unary main_c_4 main_v5 (broadcastInDim S28 ![] bcast_S_S28 : (⟨S_, .i32⟩ : BufTy).Contents (Elt F) → (⟨S28, .i32⟩ : BufTy).Contents (Elt F)),
    binary main_c_1 main_v5 main_v6 (addi : (⟨S28, .i32⟩ : BufTy).Contents (Elt F) → (⟨S28, .i32⟩ : BufTy).Contents (Elt F) → (⟨S28, .i32⟩ : BufTy).Contents (Elt F)),
    ternary main_c_2 main_v6 main_c_1 main_v7 (select : (⟨S28, .i1⟩ : BufTy).Contents (Elt F) → (⟨S28, .i32⟩ : BufTy).Contents (Elt F) → (⟨S28, .i32⟩ : BufTy).Contents (Elt F) → (⟨S28, .i32⟩ : BufTy).Contents (Elt F)),
    unary main_v7 main_v8 (broadcastInDim S28x1 ![0] bcast_S28_S28x1_0 : (⟨S28, .i32⟩ : BufTy).Contents (Elt F) → (⟨S28x1, .i32⟩ : BufTy).Contents (Elt F)),
    binary main_arg0 main_v8 main_v9 ((fun x i => Host.gather gather_S8x8x257x600_S28x1_S8x28x257x600_023_1_n_n_1_1_81257600 x i) : (⟨S8x8x257x600, .f32⟩ : BufTy).Contents (Elt F) → (⟨S28x1, .i32⟩ : BufTy).Contents (Elt F) → (⟨S8x28x257x600, .f32⟩ : BufTy).Contents (Elt F)),
    unary main_v4 main_v10 (broadcastInDim S8x28x1x257x600 ![0, 1, 3, 4] bcast_S8x28x257x600_S8x28x1x257x600_0_1_3_4 : (⟨S8x28x257x600, .f32⟩ : BufTy).Contents (Elt F) → (⟨S8x28x1x257x600, .f32⟩ : BufTy).Contents (Elt F)),
    unary main_v9 main_v11 (broadcastInDim S8x28x1x257x600 ![0, 1, 3, 4] bcast_S8x28x257x600_S8x28x1x257x600_0_1_3_4 : (⟨S8x28x257x600, .f32⟩ : BufTy).Contents (Elt F) → (⟨S8x28x1x257x600, .f32⟩ : BufTy).Contents (Elt F)),
    binary main_v10 main_v11 main_v12 ((fun a b => concatenate S8x28x2x257x600 2 [⟨S8x28x1x257x600, a⟩, ⟨S8x28x1x257x600, b⟩] concatenates_S8x28x1x257x600_S8x28x1x257x600_S8x28x2x257x600_d2) : (⟨S8x28x1x257x600, .f32⟩ : BufTy).Contents (Elt F) → (⟨S8x28x1x257x600, .f32⟩ : BufTy).Contents (Elt F) → (⟨S8x28x2x257x600, .f32⟩ : BufTy).Contents (Elt F)),
    StableHlo.reshape main_v12 main_v13 rfl shapeCasts_S8x28x2x257x600_S224x2x257x600 ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., nullary_bufs_sub .., nullary_bufs_sub .., nullary_bufs_sub ..,
   unary_bufs_sub .., binary_bufs_sub .., ternary_bufs_sub .., unary_bufs_sub .., binary_bufs_sub ..,
   nullary_bufs_sub .., unary_bufs_sub .., binary_bufs_sub .., ternary_bufs_sub .., unary_bufs_sub .., binary_bufs_sub ..,
   unary_bufs_sub .., unary_bufs_sub .., binary_bufs_sub .., reshape_bufs_sub ..⟩

/-- A literal channel table as the column of start indices the gather reads: the negative-index normalisation
    (never taken: its condition is the constant false) and the unit axis. -/
def column (lit : Fin 28 → BitVec 32) : IVec S28x1 32 :=
  broadcastInDim S28x1 ![0] bcast_S28_S28x1_0
    (select (constantI S28 1 0#1)
      (addi (fun i => lit (S28.rowMajor i)) (broadcastInDim S28 ![] bcast_S_S28 (constantI S_ 32 8#32)))
      (fun i => lit (S28.rowMajor i)))

/-- The planes of every batch at one table's channels, with the unit axis the stacking adds. -/
def planes {α : Type} (lit : Fin 28 → BitVec 32) (x : S8x8x257x600.Idx → α) : S8x28x1x257x600.Idx → α :=
  broadcastInDim S8x28x1x257x600 ![0, 1, 3, 4] bcast_S8x28x257x600_S8x28x1x257x600_0_1_3_4
    (Host.gather gather_S8x8x257x600_S28x1_S8x28x257x600_023_1_n_n_1_1_81257600 x (column lit))

/-- The reference's result as one term of its argument. -/
def result {α : Type} (x : S8x8x257x600.Idx → α) : S224x2x257x600.Idx → α :=
  shapeCast S224x2x257x600
    (concatenate S8x28x2x257x600 2 [⟨S8x28x1x257x600, planes lit0 x⟩, ⟨S8x28x1x257x600, planes lit1 x⟩]
      concatenates_S8x28x1x257x600_S8x28x1x257x600_S8x28x2x257x600_d2)
    shapeCasts_S8x28x2x257x600_S224x2x257x600

/-- On every device, for any float values, from any memory with zero counters: every weakly fair execution of
    @main terminates with the result at `result` of the argument and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v13) = result (m ((c.tc : Thread nD τ).loc main_arg0))
      ∧ r.2.mem ((c.tc : Thread nD τ).loc main_arg0) = m ((c.tc : Thread nD τ).loc main_arg0) :=
  (θ_run defs _ _).mono (fun _ h c => ⟨(h c main_v13).trans (by after_results; rfl),
      (h c main_arg0).trans (by after_results)⟩)
    (run_seq scopedRefs_eq scopedSems_eq defs main (fun _ => ops) main_eq (fun _ => ops_sub) m ρ)

end Cert.ReferenceIdeal.RefRun

end
-- ==== Proof.RefValue.lean ====
/-
  The reference's result, index by index, is the pair planes.

  Reading the reference's composed term from the outside in at row r, slot s, frequency f, time t: the final reshape
  [8, 28, 2, 257, 600] → [224, 2, 257, 600] keeps row-major positions, so it reads batch r / 28, pair r % 28, slot s;
  the concatenation along the slot axis reads the first gathered array at slot 0 and the second at slot 1; the unit axis
  is dropped; the gather along the channel axis reads the data at the start index the pair's table entry gives, taken
  signed and clamped into 0 … 7; the table entry reaches the gather unchanged (the negative-index select is never
  taken, the column has one entry per pair). Each table entry is a channel number in 0 … 7 already, so the clamp
  leaves it, and it is the channel the specification names.
-/
import proofs.«112704_j9242769622016_2_alg».proof.Proof.RefRun
import proofs.«112704_j9242769622016_2_alg».proof.Proof.Spec
import Idealize.ShloMosaic.Lib.Pipeline.Value
import Idealize.ShloMosaic.Lib.ValueIdx

set_option maxRecDepth 16384

noncomputable section

namespace Cert.ReferenceIdeal.RefValue

open Cert.ReferenceIdeal Cert.ReferenceIdeal.Gen Cert.ReferenceIdeal.RefRun Cert.PairPlanes
open Idealize.ShloMosaic Idealize.ShloMosaic.ValueIdx

/-- The gather's dimension numbers: operand axis 1 (channels) collapsed and indexed, axes 0, 2, 3 kept whole. -/
abbrev G := gather_S8x8x257x600_S28x1_S8x28x257x600_023_1_n_n_1_1_81257600

/-- THE GATHER AT AN INDEX: batch, frequency and time pass through; the channel is the start index of the pair, read
    signed and clamped into 0 … 7. -/
theorem gather_at {α : Type} (x : S8x8x257x600.Idx → α) (idx : IVec S28x1 32) (b : Fin 8) (p : Fin 28) (f : Fin 257) (t : Fin 600) :
    Host.gather G x idx (ix4 b p f t) = x (ix4 b ⟨min (idx (ix2 p 0)).toInt.toNat 7, by omega⟩ f t) := by
  unfold Host.gather
  refine congrArg x (funext fun a => Fin.ext ?_)
  fin_cases a <;>
    simp [GatherDims.operandIdx, GatherDims.start, GatherDims.offCoord, GatherDims.batchCoord, G,
      gather_S8x8x257x600_S28x1_S8x28x257x600_023_1_n_n_1_1_81257600, GatherDims.sKept, Shape.kept]
  · rfl
  · refine congrArg (fun i => min (idx i).toInt.toNat 7) ?_
    funext k; fin_cases k <;> rfl
  · rfl
  · rfl

/-- The column of start indices holds the table's entry for each pair. -/
theorem column_at (lit : Fin 28 → BitVec 32) (p : Fin 28) : column lit (ix2 p 0) = lit p := by
  unfold column
  rw [broadcastInDim_apply _ _ _ (ix2 p 0) (ix1 p) (fun a => by fin_cases a; rfl)]
  rw [select_apply]
  unfold constantI
  rw [select_zero]
  refine congrArg lit (Fin.ext ?_)
  rw [Shape.rowMajor_val_one]

/-- One gathered array with its unit axis, at an index: the data at the table's channel. -/
theorem planes_at {α : Type} (lit : Fin 28 → BitVec 32) (x : S8x8x257x600.Idx → α) (b : Fin 8) (p : Fin 28) (f : Fin 257) (t : Fin 600) :
    planes lit x (ix5 b p 0 f t) = x (ix4 b ⟨min (lit p).toInt.toNat 7, by omega⟩ f t) := by
  unfold planes
  rw [broadcastInDim_apply _ _ _ (ix5 b p 0 f t) (ix4 b p f t) (fun a => by fin_cases a <;> rfl)]
  rw [gather_at]
  refine congrArg (fun c => x (ix4 b c f t)) (Fin.ext ?_)
  show min (column lit (ix2 p 0)).toInt.toNat 7 = min (lit p).toInt.toNat 7
  rw [column_at]

/-- Every first channel, read signed and clamped, is the specification's; -/
theorem clamp0 : ∀ p : Fin 28, min (lit0 p).toInt.toNat 7 = (ch0 p).val := by decide
/-- and every second channel. -/
theorem clamp1 : ∀ p : Fin 28, min (lit1 p).toInt.toNat 7 = (ch1 p).val := by decide

/-- The reshape's source index has the same row-major position. -/
theorem reshape_pos (r : Fin 224) (s : Fin 2) (f : Fin 257) (t : Fin 600) :
    (S8x28x2x257x600.rowMajor (ix5 (batchOf r) (pairOf r) s f t)).val = (S224x2x257x600.rowMajor (ix4 r s f t)).val := by
  rw [Shape.rowMajor_val_five, Shape.rowMajor_val_four]
  show ((((r.val / 28) * 28 + r.val % 28) * 2 + s.val) * 257 + f.val) * 600 + t.val = ((r.val * 2 + s.val) * 257 + f.val) * 600 + t.val
  rw [Nat.div_add_mod']

/-- THE REFERENCE'S RESULT AT AN INDEX is the specification's. -/
theorem result_at {α : Type} (x : S8x8x257x600.Idx → α) (r : Fin 224) (s : Fin 2) (f : Fin 257) (t : Fin 600) :
    result x (ix4 r s f t) = pairsAt x r s f t := by
  unfold result
  rw [shapeCast_apply _ _ (ix4 r s f t) (ix5 (batchOf r) (pairOf r) s f t) (reshape_pos r s f t)]
  match s with
  | ⟨0, h0⟩ =>
    refine (concatenate_pair_apply_left (t := S8x28x2x257x600) (s₁ := S8x28x1x257x600) (s₂ := S8x28x1x257x600) 2
      (planes lit0 x) (planes lit1 x) concatenates_S8x28x1x257x600_S8x28x1x257x600_S8x28x2x257x600_d2
      (ix5 (batchOf r) (pairOf r) ⟨0, h0⟩ f t) rfl
      (ix5 (batchOf r) (pairOf r) (0 : Fin 1) f t) (fun a => by fin_cases a <;> rfl)).trans ?_
    rw [planes_at]
    exact congrArg (fun c => x (ix4 (batchOf r) c f t)) (Fin.ext (clamp0 (pairOf r)))
  | ⟨1, h1⟩ =>
    refine (concatenate_pair_apply_right (t := S8x28x2x257x600) (s₁ := S8x28x1x257x600) (s₂ := S8x28x1x257x600) 2
      (planes lit0 x) (planes lit1 x) concatenates_S8x28x1x257x600_S8x28x1x257x600_S8x28x2x257x600_d2
      (ix5 (batchOf r) (pairOf r) ⟨1, h1⟩ f t) rfl rfl
      (ix5 (batchOf r) (pairOf r) (0 : Fin 1) f t)
      (fun a ha => by fin_cases a <;> first | rfl | exact absurd rfl ha) rfl).trans ?_
    rw [planes_at]
    exact congrArg (fun c => x (ix4 (batchOf r) c f t)) (Fin.ext (clamp1 (pairOf r)))

/-- THE REFERENCE'S RESULT is the pair planes of its argument. -/
theorem result_eq {α : Type} (x : S8x8x257x600.Idx → α) : result x = pairs x := by
  funext j
  rw [eq_ix4 j]
  exact result_at x (j 0) (j 1) (j 2) (j 3)

end Cert.ReferenceIdeal.RefValue

end
-- ==== Proof.lean ====
/-
  The pair-copy kernel against its reference: `Cert.Claim`.

  The kernel copies, for every batch b and every pair p = (i, j), i < j, of the 8 channels (28 pairs in row-major
  upper-triangular order), the two [257, 600] planes of channels i and j of batch b into row 28·b + p of a
  [224, 2, 257, 600] result; the channels of each pair come from two literal tables prefetched into scalar memory. The
  reference gathers the same planes along the channel axis with the same two tables, stacks the two gathered arrays and
  reshapes. Nothing is computed on either side: both results are the pair planes of the argument (Proof/Spec.lean),
  entry by entry, over any values — the precondition is not used.

  The frames of the two kernel programs are the generated ones, under their side conditions on the tables' words: the
  tables are constants of the program, every word is a channel below 8 (Proof/KernelTables.lean,
  Proof/KernelIdealTables.lean). The reference's frame is its run (Proof/RefRun.lean) with the result dropped. The
  idealization rewrote nothing, so `preserves` is trivial. For `algebraic`, the kernel's result array is read off the
  generated frame run block by block (Proof/KernelIdealBlock.lean, Proof/KernelIdealValue.lean) and the reference's
  off its run index by index (Proof/RefValue.lean).
-/
import proofs.«112704_j9242769622016_2_alg».proof.Defs
import proofs.«112704_j9242769622016_2_alg».proof.Proof.Gen.Kernel
import proofs.«112704_j9242769622016_2_alg».proof.Proof.Gen.Kernel.Skeleton
import proofs.«112704_j9242769622016_2_alg».proof.Proof.Gen.Kernel.Launch
import proofs.«112704_j9242769622016_2_alg».proof.Proof.Gen.Kernel.Points
import proofs.«112704_j9242769622016_2_alg».proof.Proof.Gen.Kernel.Frame
import proofs.«112704_j9242769622016_2_alg».proof.Proof.Gen.KernelIdeal
import proofs.«112704_j9242769622016_2_alg».proof.Proof.Gen.KernelIdeal.Skeleton
import proofs.«112704_j9242769622016_2_alg».proof.Proof.Gen.KernelIdeal.Launch
import proofs.«112704_j9242769622016_2_alg».proof.Proof.Gen.KernelIdeal.Points
import proofs.«112704_j9242769622016_2_alg».proof.Proof.Gen.KernelIdeal.Frame
import proofs.«112704_j9242769622016_2_alg».proof.Proof.Gen.ReferenceIdeal
import proofs.«112704_j9242769622016_2_alg».proof.Proof.Gen.Pre_finite_inputs
import proofs.«112704_j9242769622016_2_alg».proof.Proof.KernelTables
import proofs.«112704_j9242769622016_2_alg».proof.Proof.KernelIdealValue
import proofs.«112704_j9242769622016_2_alg».proof.Proof.RefRun
import proofs.«112704_j9242769622016_2_alg».proof.Proof.RefValue
import Idealize.ShloMosaic.Adequacy
import Idealize.ShloMosaic.Init

noncomputable section

namespace Cert.Proof

open Idealize.ShloMosaic Idealize.SL.Sem

/-- The kernel as printed runs and keeps its argument: the generated frame, its side conditions from the tables. -/
theorem frame_kernel : Cert.frame_Kernel := fun m ρ _ =>
  Cert.Kernel.Gen.frame m ρ (Cert.Kernel.Tables.ok m) (Cert.Kernel.Tables.hyps m (Cert.Kernel.Tables.ok m))

/-- The same for the idealized kernel. -/
theorem frame_kernelIdeal : Cert.frame_KernelIdeal := fun m ρ _ =>
  Cert.KernelIdeal.Gen.frame m ρ (Cert.KernelIdeal.Tables.ok m) (Cert.KernelIdeal.Tables.hyps m (Cert.KernelIdeal.Tables.ok m))

/-- The reference runs and keeps its argument: its run, the result dropped. -/
theorem frame_reference : Cert.frame_ReferenceIdeal := fun m ρ _ =>
  (θ_run Cert.ReferenceIdeal.defs _ _).mono (fun _ h c => (h c).2) (Cert.ReferenceIdeal.RefRun.run (F := Ideal) m ρ)

/-- The ideal pass rewrote no operation. -/
theorem preserves : Cert.preserves_Kernel_KernelIdeal := trivial

/-- Both programs end with the pair planes of the argument in their result. -/
theorem algebraic : Cert.algebraic_KernelIdeal_ReferenceIdeal := by
  intro m ρ m' ρ' _ hagree
  refine ⟨fun c => Cert.PairPlanes.pairs (m ((c.tc : Thread Cert.KernelIdeal.nD Cert.KernelIdeal.τ).loc Cert.KernelIdeal.main_arg0)),
    Cert.KernelIdeal.KValue.run (F := Ideal) m ρ, ?_⟩
  refine (θ_run Cert.ReferenceIdeal.defs _ _).mono (fun _ h c => ⟨?_, (h c).2⟩)
    (Cert.ReferenceIdeal.RefRun.run (F := Ideal) m' ρ')
  rw [(h c).1, Cert.ReferenceIdeal.RefValue.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
